-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x256 .f32) (main_arg2 : FVec F S256 .f32) (main_arg3 : FVec F S256x128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 50
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S128x256, .bf16⟩
  | .hbm, ⟨34, _⟩ => ⟨S50000x256, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S256x128, .bf16⟩
  | .hbm, ⟨49, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .bf16⟩
  | .local _ .vmem, ⟨7, _⟩ => ⟨S256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x1, .f32⟩
  | .local _ .vmem, ⟨15, _⟩ => ⟨S5000x1, .f32⟩
  | .local _ .vmem, ⟨16, _⟩ => ⟨S256x128, .bf16⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S5000x256_S5000x256 : S5000x256.ShapeCasts S5000x256
  broadcasts_S5000x1_S5000x256 : S5000x1.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call1_cst : Ref sig .tc := ⟨.hbm, 60, rfl⟩
abbrev main_call1_v0 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's whole run with its result named.

  The program is two kernel launches among stretches of host operations. Its run is the chain of four segments:
  the host operations before the first launch, the first launch, the host operations between the launches, the second
  launch. The contents of every buffer at each boundary are known by name: after a host stretch, the stretch's operations
  applied to the contents before it; after a launch, the launch's arrays at what its write-backs leave and every other
  buffer as it was. At the end every buffer the program does not scope holds the last boundary's contents, so the result
  array holds the last boundary's contents at the result, and each argument array its launch contents.
-/
import proofs.«172123_j44719199485974_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the argument arrays as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Whole

end
-- ==== Proof.LibNodeLayer.lean ====
/-
  One message-passing layer over the extended reals, entry by entry.

  For node features `h` and neighbour sums `s` of shape [N, D], weights `W` of shape [D, E] and a bias `b` of
  length E, the layer's entry at (p, q) is

      max (∑ k < D, (h (p, k) + m (p, k)) * W (k, q) + b q) 0

  where `m` is the neighbour mean. Two spellings of the mean are compared: the sum times a per-node reciprocal
  kept as a column [N, 1] (`viaRecip`), and the sum divided by a per-node count (`viaQuot`). When the column's entry
  is `1 / d p` and `d p ≠ 0`, the two agree on every extended real: off zero the quotient `x / y` is the product
  `x * y⁻¹`, so `x * (1 / y) = x * (1 * y⁻¹) = x / y`, at the infinities too. Nothing else about the numbers is used;
  the two sums have the same terms in the same order.
-/
import Idealize.ShloMosaic.Lib.ValueIdx
import Idealize.ShloMosaic.PureOps.Ideal.Laws

open scoped BigOperators

noncomputable section

namespace Cert.NodeLayer

open Idealize.ShloMosaic Idealize.ShloMosaic.ValueIdx

/-- The layer with the neighbour mean spelt "sum times reciprocal column". -/
def viaRecip {N D E : ℕ} (h s : (⟨2, ![N, D]⟩ : Shape).Idx → EReal) (r : (⟨2, ![N, 1]⟩ : Shape).Idx → EReal)
    (W : (⟨2, ![D, E]⟩ : Shape).Idx → EReal) (b : (⟨1, ![E]⟩ : Shape).Idx → EReal) :
    (⟨2, ![N, E]⟩ : Shape).Idx → EReal := fun i =>
  max ((∑ k : Fin D, (h (ix2 (i 0) k) + s (ix2 (i 0) k) * r (ix2 (i 0) (0 : Fin 1))) * W (ix2 k (i 1))) + b (ix1 (i 1)))
    (Ideal.ofBits .f32 0x00000000#32)

/-- The layer with the neighbour mean spelt "sum divided by the count". -/
def viaQuot {N D E : ℕ} (h s : (⟨2, ![N, D]⟩ : Shape).Idx → EReal) (d : (⟨1, ![N]⟩ : Shape).Idx → EReal)
    (W : (⟨2, ![D, E]⟩ : Shape).Idx → EReal) (b : (⟨1, ![E]⟩ : Shape).Idx → EReal) :
    (⟨2, ![N, E]⟩ : Shape).Idx → EReal := fun i =>
  max ((∑ k : Fin D, (h (ix2 (i 0) k) + Ideal.div (s (ix2 (i 0) k)) (d (ix1 (i 0)))) * W (ix2 k (i 1))) + b (ix1 (i 1)))
    (Ideal.ofBits .f32 0x00000000#32)

theorem viaRecip_apply {N D E : ℕ} (h s : (⟨2, ![N, D]⟩ : Shape).Idx → EReal) (r : (⟨2, ![N, 1]⟩ : Shape).Idx → EReal)
    (W : (⟨2, ![D, E]⟩ : Shape).Idx → EReal) (b : (⟨1, ![E]⟩ : Shape).Idx → EReal) (p : Fin N) (q : Fin E) :
    viaRecip h s r W b (ix2 p q)
      = max ((∑ k : Fin D, (h (ix2 p k) + s (ix2 p k) * r (ix2 p (0 : Fin 1))) * W (ix2 k q)) + b (ix1 q))
          (Ideal.ofBits .f32 0x00000000#32) := rfl

theorem viaQuot_apply {N D E : ℕ} (h s : (⟨2, ![N, D]⟩ : Shape).Idx → EReal) (d : (⟨1, ![N]⟩ : Shape).Idx → EReal)
    (W : (⟨2, ![D, E]⟩ : Shape).Idx → EReal) (b : (⟨1, ![E]⟩ : Shape).Idx → EReal) (p : Fin N) (q : Fin E) :
    viaQuot h s d W b (ix2 p q)
      = max ((∑ k : Fin D, (h (ix2 p k) + Ideal.div (s (ix2 p k)) (d (ix1 p))) * W (ix2 k q)) + b (ix1 q))
          (Ideal.ofBits .f32 0x00000000#32) := rfl

/-- Rows `o … o + n - 1` of the layer over N nodes are the layer over those n nodes alone: an entry depends on its own
    node's row of `h`, `s` and the column, and on all of `W` and `b`. -/
theorem viaRecip_rows {n N D E : ℕ} (o : ℕ) (B0 B1 : (⟨2, ![n, D]⟩ : Shape).Idx → EReal) (B2 : (⟨2, ![n, 1]⟩ : Shape).Idx → EReal)
    (A0 A1 : (⟨2, ![N, D]⟩ : Shape).Idx → EReal) (A2 : (⟨2, ![N, 1]⟩ : Shape).Idx → EReal)
    (W : (⟨2, ![D, E]⟩ : Shape).Idx → EReal) (b : (⟨1, ![E]⟩ : Shape).Idx → EReal)
    (h0 : ∀ (p : Fin n) (P : Fin N) (k : Fin D), P.val = o + p.val → B0 (ix2 p k) = A0 (ix2 P k))
    (h1 : ∀ (p : Fin n) (P : Fin N) (k : Fin D), P.val = o + p.val → B1 (ix2 p k) = A1 (ix2 P k))
    (h2 : ∀ (p : Fin n) (P : Fin N), P.val = o + p.val → B2 (ix2 p (0 : Fin 1)) = A2 (ix2 P (0 : Fin 1)))
    (p : Fin n) (P : Fin N) (hP : P.val = o + p.val) (q : Fin E) :
    viaRecip B0 B1 B2 W b (ix2 p q) = viaRecip A0 A1 A2 W b (ix2 P q) := by
  rw [viaRecip_apply, viaRecip_apply]
  refine congrArg (fun z => max (z + b (ix1 q)) _) (Finset.sum_congr rfl fun k _ => ?_)
  rw [h0 p P k hP, h1 p P k hP, h2 p P hP]

/-- Off zero, a product with the reciprocal is the quotient, on every extended real. -/
theorem mul_div_one (x y : EReal) (hy : y ≠ 0) : x * Ideal.div 1 y = Ideal.div x y := by
  unfold Ideal.div
  rw [if_neg hy, if_neg hy, one_mul]

/-- The two spellings agree when the column holds the reciprocals of nonzero counts. -/
theorem viaRecip_eq_viaQuot {N D E : ℕ} (h s : (⟨2, ![N, D]⟩ : Shape).Idx → EReal) (r : (⟨2, ![N, 1]⟩ : Shape).Idx → EReal)
    (d : (⟨1, ![N]⟩ : Shape).Idx → EReal) (W : (⟨2, ![D, E]⟩ : Shape).Idx → EReal) (b : (⟨1, ![E]⟩ : Shape).Idx → EReal)
    (hr : ∀ p : Fin N, r (ix2 p (0 : Fin 1)) = Ideal.div 1 (d (ix1 p))) (hd : ∀ p : Fin N, d (ix1 p) ≠ 0) :
    viaRecip h s r W b = viaQuot h s d W b := by
  funext i
  obtain ⟨p, q, rfl⟩ : ∃ (p : Fin N) (q : Fin E), i = ix2 p q := ⟨i 0, i 1, eq_ix2 i⟩
  rw [viaRecip_apply, viaQuot_apply]
  refine congrArg (fun z => max (z + b (ix1 q)) _) (Finset.sum_congr rfl fun k _ => ?_)
  rw [hr p, mul_div_one _ _ (hd p)]

end Cert.NodeLayer

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«172123_j44719199485974_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.TileValue.lean ====
/-
  What one tile of the node-update kernel stores, as one function of the tile's loads.

  A tile holds 5000 nodes. The body loads the tile's features `h`, its neighbour sums `s`, its reciprocal column `r`
  ([5000, 1]), the whole weight matrix `W` and the whole bias `b`, and stores

      max ((h + s * r) · W + b) 0

  with `r` repeated along the feature axis, the product `·` a matrix product into a zero accumulator, and `b` repeated
  down the rows. At the exact values the change of float format before the product is the identity and the product's
  entry at (p, q) is the plain sum over the contraction index, so the stored tile is the layer function of the loads with
  the mean spelt "sum times reciprocal column". The same holds for both launches, which differ only in the two
  feature widths.
-/
import proofs.«172123_j44719199485974_2_alg».proof.Proof.Gen.KernelIdeal.Skeleton
import proofs.«172123_j44719199485974_2_alg».proof.Proof.LibNodeLayer
import proofs.«172123_j44719199485974_2_alg».proof.Proof.LibDotSums
import proofs.«172123_j44719199485974_2_alg».proof.Proof.LibColumnLayout
import Idealize.ShloMosaic.Lib.ValueIdx
import Idealize.ShloMosaic.Lib.ValueLayout
import Idealize.ShloMosaic.Lib.Pipeline.Value

open scoped BigOperators

noncomputable section

namespace Cert.KernelIdeal.Tile

open Idealize.ShloMosaic Idealize.ShloMosaic.TcCoe Idealize.ShloMosaic.ValueIdx Cert.KernelIdeal Cert.KernelIdeal.Gen

/-- The first launch's tile (128 features in, 256 out). -/
theorem k0_pay1_eq (x0 x1 : Vec Ideal S5000x128 .f32) (x2 : Vec Ideal S5000x1 .f32) (x3 : Vec Ideal S128x256 .bf16)
    (x4 : Vec Ideal S256 .f32) :
    k0_pay1 (F := Ideal) x0 x1 x2 x3 x4 = Cert.NodeLayer.viaRecip x0 x1 x2 x3 x4 := by
  funext i
  obtain ⟨p, q, rfl⟩ : ∃ (p : Fin 5000) (q : Fin 256), i = ix2 p q := ⟨i 0, i 1, eq_ix2 i⟩
  rw [Cert.NodeLayer.viaRecip_apply]
  unfold k0_pay1
  simp only [shapeCast_self]
  rw [maximumf_apply, addf_apply, broadcast_apply, broadcastTo_1b_ab_apply, shapeCast_a_1a_apply]
  dsimp only [matmul]
  rw [Cert.DotSums.matmul_zero_ix2 dot_S5000x128_S128x256_S5000x256_1_0_0_1_n_n none rfl rfl rfl rfl rfl rfl rfl rfl]
  simp only [truncf_apply, addf_apply, mulf_apply, Cert.ColumnLayout.broadcastTo_a1_ab_apply]
  rfl

/-- The second launch's tile (256 features in, 128 out). -/
theorem k1_pay1_eq (x0 x1 : Vec Ideal S5000x256 .f32) (x2 : Vec Ideal S5000x1 .f32) (x3 : Vec Ideal S256x128 .bf16)
    (x4 : Vec Ideal S128 .f32) :
    k1_pay1 (F := Ideal) x0 x1 x2 x3 x4 = Cert.NodeLayer.viaRecip x0 x1 x2 x3 x4 := by
  funext i
  obtain ⟨p, q, rfl⟩ : ∃ (p : Fin 5000) (q : Fin 128), i = ix2 p q := ⟨i 0, i 1, eq_ix2 i⟩
  rw [Cert.NodeLayer.viaRecip_apply]
  unfold k1_pay1
  simp only [shapeCast_self]
  rw [maximumf_apply, addf_apply, broadcast_apply, broadcastTo_1b_ab_apply, shapeCast_a_1a_apply]
  dsimp only [matmul]
  rw [Cert.DotSums.matmul_zero_ix2 dot_S5000x256_S256x128_S5000x128_1_0_0_1_n_n none rfl rfl rfl rfl rfl rfl rfl rfl]
  simp only [truncf_apply, addf_apply, mulf_apply, Cert.ColumnLayout.broadcastTo_a1_ab_apply]
  rfl

end Cert.KernelIdeal.Tile

end
-- ==== Proof.Launch0.lean ====
/-
  Launch 0 of the node-update kernel: its result array as one function of the arrays it reads.

  The grid has ten points; point `t` works on nodes `5000 t … 5000 t + 4999`: it is handed rows of that range of the
  feature array, of the neighbour-sum array and of the reciprocal column, and the whole weight matrix and bias, and it
  writes back rows of that range of the result. What it writes is the layer function of its loads (the tile's value),
  and an entry of the layer depends only on its own node's rows, so the block written back at `t` is block `t` of the
  layer function of the WHOLE arrays. The ten blocks tile the result array (node `r` lies in block `r / 5000`), hence
  after the launch the result array holds that function everywhere.
-/
import proofs.«172123_j44719199485974_2_alg».proof.Proof.Gen.KernelIdeal.Frame
import proofs.«172123_j44719199485974_2_alg».proof.Proof.TileValue
import Idealize.ShloMosaic.Lib.Pipeline.Value
import Idealize.ShloMosaic.Lib.Tactic

set_option maxRecDepth 16384

noncomputable section

namespace Cert.KernelIdeal.Launch0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The layer function of the arrays the launch reads, as the launch finds them. -/
def whole (c : Dev nD) : S50000x256.Idx → EReal :=
  Cert.NodeLayer.viaRecip (V c main_arg0 : S50000x128.Idx → EReal) (V c main_v18 : S50000x128.Idx → EReal)
    (V c main_v8 : S50000x1.Idx → EReal) (V c main_v19 : S128x256.Idx → EReal) (V c main_arg2 : S256.Idx → EReal)

/-- The printed index maps over the grid: the three row-blocked inputs and the output are at block row `t`, the weight
    matrix and the bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A feature block's entry is the array's entry 5000 t rows further down. -/
theorem blk0_apply (c : Dev nD) (t : Fin cfg0.N) (p : Fin 5000) (P : Fin 50000) (k : Fin 128) (hP : P.val = 5000 * t.val + p.val) :
    (iblk0 V c 0 t : Vec Ideal S5000x128 .f32) (ix2 p k) = (V c main_arg0 : S50000x128.Idx → EReal) (ix2 P k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- The same for the neighbour sums. -/
theorem blk1_apply (c : Dev nD) (t : Fin cfg0.N) (p : Fin 5000) (P : Fin 50000) (k : Fin 128) (hP : P.val = 5000 * t.val + p.val) :
    (iblk0 V c 1 t : Vec Ideal S5000x128 .f32) (ix2 p k) = (V c main_v18 : S50000x128.Idx → EReal) (ix2 P k) := by
  obtain ⟨-, -, e0, e1, -⟩ := idx_facts t
  unfold iblk0
  rw [View.read_apply]
  show V c main_v18 _ = V c main_v18 _
  refine congrArg (V c main_v18) (funext fun a => Fin.ext ?_)
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega

/-- The same for the reciprocal column. -/
theorem blk2_apply (c : Dev nD) (t : Fin cfg0.N) (p : Fin 5000) (P : Fin 50000) (hP : P.val = 5000 * t.val + p.val) :
    (iblk0 V c 2 t : Vec Ideal S5000x1 .f32) (ix2 p (0 : Fin 1)) = (V c main_v8 : S50000x1.Idx → EReal) (ix2 P (0 : Fin 1)) := by
  obtain ⟨-, -, -, -, e0, e1, -⟩ := idx_facts t
  unfold iblk0
  rw [View.read_apply]
  show V c main_v8 _ = V c main_v8 _
  refine congrArg (V c main_v8) (funext fun a => Fin.ext ?_)
  match a with
  | ⟨0, _⟩ => show win0_2.index t (0 : Fin 2) * 5000 + 1 * p.val = P.val; rw [e0, hP]; omega
  | ⟨1, _⟩ => show win0_2.index t (1 : Fin 2) * 1 + 1 * 0 = 0; rw [e1]

/-- The weight window's one block is the whole matrix. -/
theorem blk3_eq (c : Dev nD) (t : Fin cfg0.N) :
    (iblk0 V c 3 t : Vec Ideal S128x256 .bf16) = (V c main_v19 : S128x256.Idx → EReal) := by
  obtain ⟨-, -, -, -, -, -, e0, e1, -⟩ := idx_facts t
  funext y
  unfold iblk0
  rw [View.read_apply]
  show V c main_v19 _ = V c main_v19 _
  refine congrArg (V c main_v19) (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias window's one block is the whole bias. -/
theorem blk4_eq (c : Dev nD) (t : Fin cfg0.N) :
    (iblk0 V c 4 t : Vec Ideal S256 .f32) = (V c main_arg2 : S256.Idx → EReal) := by
  obtain ⟨-, -, -, -, -, -, -, -, e0, -⟩ := idx_facts t
  funext y
  unfold iblk0
  rw [View.read_apply]
  show V c main_arg2 _ = V c main_arg2 _
  refine congrArg (V c main_arg2) (funext fun a => Fin.ext ?_)
  match a with
  | ⟨0, _⟩ => show win0_4.index t (0 : Fin 1) * 256 + 1 * (y 0).val = (y 0).val; rw [e0]; omega

/-- WHAT POINT `t` WRITES BACK is block `t` of the layer function of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz,
    View.ld_unit_zero (S := S128x256) hz, View.ld_unit_zero (S := S256) hz1]
  rw [Cert.KernelIdeal.Tile.k0_pay1_eq, blk3_eq, blk4_eq]
  obtain ⟨-, -, -, -, -, -, -, -, -, e0, e1⟩ := idx_facts t
  funext (j : S5000x256.Idx)
  obtain ⟨p, q, rfl⟩ : ∃ (p : Fin 5000) (q : Fin 256), j = ix2 p q := ⟨j 0, j 1, eq_ix2 j⟩
  have hP : 5000 * t.val + p.val < 50000 := by
    have ht : t.val < 10 := lt_of_lt_of_eq t.isLt N_0
    have := p.isLt; omega
  have hemb : ((cfg0.win 5).blk t).view.emb (ix2 p q) = ix2 (⟨5000 * t.val + p.val, hP⟩ : Fin 50000) q := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 256 + 1 * q.val = q.val; rw [e1]; omega
  show Cert.NodeLayer.viaRecip _ _ _ _ _ (ix2 p q) = whole V c (((cfg0.win 5).blk t).view.emb (ix2 p q))
  rw [hemb]
  unfold whole
  exact Cert.NodeLayer.viaRecip_rows (5000 * t.val) _ _ _ _ _ _ _ _
    (fun p P k h => blk0_apply V c t p P k h) (fun p P k h => blk1_apply V c t p P k h)
    (fun p P h => blk2_apply V c t p P h) p ⟨5000 * t.val + p.val, hP⟩ rfl q

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v20).slice (win0_5.rect t)).set ↔ _
  rw [View.set_slice_whole, Rect.mem_set_unit]
  exact Iff.rfl

/-- Every node's row lies in the block of some point: node `r` in block `r / 5000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_5 _, ?_⟩
  rw [mem_blk]
  obtain ⟨-, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 256 ≤ (i 1).val ∧ (i 1).val < win0_5.index _ (1 : Fin 2) * 256 + 256
    rw [e1]; omega

/-- THE RESULT ARRAY after the launch: the layer function of the arrays the launch read. -/
theorem final (c : Dev nD) : (dat0 V c).arrAt 5 cfg0.N = whole V c :=
  (dat0 V c).arrAt_eq_of_cover 5 (whole V c) (fun t _ => flushed_eq V c t) (cover)

end Cert.KernelIdeal.Launch0

end
-- ==== Proof.Launch1.lean ====
/-
  Launch 1 of the node-update kernel: its result array as one function of the arrays it reads.

  The grid has ten points; point `t` works on nodes `5000 t … 5000 t + 4999`: it is handed rows of that range of the
  feature array, of the neighbour-sum array and of the reciprocal column, and the whole weight matrix and bias, and it
  writes back rows of that range of the result. What it writes is the layer function of its loads (the tile's value),
  and an entry of the layer depends only on its own node's rows, so the block written back at `t` is block `t` of the
  layer function of the WHOLE arrays. The ten blocks tile the result array (node `r` lies in block `r / 5000`), hence
  after the launch the result array holds that function everywhere.
-/
import proofs.«172123_j44719199485974_2_alg».proof.Proof.Gen.KernelIdeal.Frame
import proofs.«172123_j44719199485974_2_alg».proof.Proof.TileValue
import Idealize.ShloMosaic.Lib.Pipeline.Value
import Idealize.ShloMosaic.Lib.Tactic

set_option maxRecDepth 16384

noncomputable section

namespace Cert.KernelIdeal.Launch1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The layer function of the arrays the launch reads, as the launch finds them. -/
def whole (c : Dev nD) : S50000x128.Idx → EReal :=
  Cert.NodeLayer.viaRecip (V c main_v20 : S50000x256.Idx → EReal) (V c main_v30 : S50000x256.Idx → EReal)
    (V c main_v8 : S50000x1.Idx → EReal) (V c main_v31 : S256x128.Idx → EReal) (V c main_arg4 : S128.Idx → EReal)

/-- The printed index maps over the grid: the three row-blocked inputs and the output are at block row `t`, the weight
    matrix and the bias at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A feature block's entry is the array's entry 5000 t rows further down. -/
theorem blk0_apply (c : Dev nD) (t : Fin cfg1.N) (p : Fin 5000) (P : Fin 50000) (k : Fin 256) (hP : P.val = 5000 * t.val + p.val) :
    (iblk1 V c 0 t : Vec Ideal S5000x256 .f32) (ix2 p k) = (V c main_v20 : S50000x256.Idx → EReal) (ix2 P k) := by
  obtain ⟨e0, e1, -⟩ := idx_facts t
  unfold iblk1
  rw [View.read_apply]
  show V c main_v20 _ = V c main_v20 _
  refine congrArg (V c main_v20) (funext fun a => Fin.ext ?_)
  match a with
  | ⟨0, _⟩ => show win1_0.index t (0 : Fin 2) * 5000 + 1 * p.val = P.val; rw [e0, hP]; omega
  | ⟨1, _⟩ => show win1_0.index t (1 : Fin 2) * 256 + 1 * k.val = k.val; rw [e1]; omega

/-- The same for the neighbour sums. -/
theorem blk1_apply (c : Dev nD) (t : Fin cfg1.N) (p : Fin 5000) (P : Fin 50000) (k : Fin 256) (hP : P.val = 5000 * t.val + p.val) :
    (iblk1 V c 1 t : Vec Ideal S5000x256 .f32) (ix2 p k) = (V c main_v30 : S50000x256.Idx → EReal) (ix2 P k) := by
  obtain ⟨-, -, e0, e1, -⟩ := idx_facts t
  unfold iblk1
  rw [View.read_apply]
  show V c main_v30 _ = V c main_v30 _
  refine congrArg (V c main_v30) (funext fun a => Fin.ext ?_)
  match a with
  | ⟨0, _⟩ => show win1_1.index t (0 : Fin 2) * 5000 + 1 * p.val = P.val; rw [e0, hP]; omega
  | ⟨1, _⟩ => show win1_1.index t (1 : Fin 2) * 256 + 1 * k.val = k.val; rw [e1]; omega

/-- The same for the reciprocal column. -/
theorem blk2_apply (c : Dev nD) (t : Fin cfg1.N) (p : Fin 5000) (P : Fin 50000) (hP : P.val = 5000 * t.val + p.val) :
    (iblk1 V c 2 t : Vec Ideal S5000x1 .f32) (ix2 p (0 : Fin 1)) = (V c main_v8 : S50000x1.Idx → EReal) (ix2 P (0 : Fin 1)) := by
  obtain ⟨-, -, -, -, e0, e1, -⟩ := idx_facts t
  unfold iblk1
  rw [View.read_apply]
  show V c main_v8 _ = V c main_v8 _
  refine congrArg (V c main_v8) (funext fun a => Fin.ext ?_)
  match a with
  | ⟨0, _⟩ => show win1_2.index t (0 : Fin 2) * 5000 + 1 * p.val = P.val; rw [e0, hP]; omega
  | ⟨1, _⟩ => show win1_2.index t (1 : Fin 2) * 1 + 1 * 0 = 0; rw [e1]

/-- The weight window's one block is the whole matrix. -/
theorem blk3_eq (c : Dev nD) (t : Fin cfg1.N) :
    (iblk1 V c 3 t : Vec Ideal S256x128 .bf16) = (V c main_v31 : S256x128.Idx → EReal) := by
  obtain ⟨-, -, -, -, -, -, e0, e1, -⟩ := idx_facts t
  funext y
  unfold iblk1
  rw [View.read_apply]
  show V c main_v31 _ = V c main_v31 _
  refine congrArg (V c main_v31) (funext fun a => Fin.ext ?_)
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-- The bias window's one block is the whole bias. -/
theorem blk4_eq (c : Dev nD) (t : Fin cfg1.N) :
    (iblk1 V c 4 t : Vec Ideal S128 .f32) = (V c main_arg4 : S128.Idx → EReal) := by
  obtain ⟨-, -, -, -, -, -, -, -, e0, -⟩ := idx_facts t
  funext y
  unfold iblk1
  rw [View.read_apply]
  show V c main_arg4 _ = V c main_arg4 _
  refine congrArg (V c main_arg4) (funext fun a => Fin.ext ?_)
  match a with
  | ⟨0, _⟩ => show win1_4.index t (0 : Fin 1) * 128 + 1 * (y 0).val = (y 0).val; rw [e0]; omega

/-- WHAT POINT `t` WRITES BACK is block `t` of the layer function of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S5000x1) hz,
    View.ld_unit_zero (S := S256x128) hz, View.ld_unit_zero (S := S128) hz1]
  rw [Cert.KernelIdeal.Tile.k1_pay1_eq, blk3_eq, blk4_eq]
  obtain ⟨-, -, -, -, -, -, -, -, -, e0, e1⟩ := idx_facts t
  funext (j : S5000x128.Idx)
  obtain ⟨p, q, rfl⟩ : ∃ (p : Fin 5000) (q : Fin 128), j = ix2 p q := ⟨j 0, j 1, eq_ix2 j⟩
  have hP : 5000 * t.val + p.val < 50000 := by
    have ht : t.val < 10 := lt_of_lt_of_eq t.isLt N_1
    have := p.isLt; omega
  have hemb : ((cfg1.win 5).blk t).view.emb (ix2 p q) = ix2 (⟨5000 * t.val + p.val, hP⟩ : Fin 50000) q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  show Cert.NodeLayer.viaRecip _ _ _ _ _ (ix2 p q) = whole V c (((cfg1.win 5).blk t).view.emb (ix2 p q))
  rw [hemb]
  unfold whole
  exact Cert.NodeLayer.viaRecip_rows (5000 * t.val) _ _ _ _ _ _ _ _
    (fun p P k h => blk0_apply V c t p P k h) (fun p P k h => blk1_apply V c t p P k h)
    (fun p P h => blk2_apply V c t p P h) p ⟨5000 * t.val + p.val, hP⟩ rfl q

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v32).slice (win1_5.rect t)).set ↔ _
  rw [View.set_slice_whole, Rect.mem_set_unit]
  exact Iff.rfl

/-- Every node's row lies in the block of some point: node `r` in block `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, e0, e1⟩ := idx_facts ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- THE RESULT ARRAY after the launch: the layer function of the arrays the launch read. -/
theorem final (c : Dev nD) : (dat1 V c).arrAt 5 cfg1.N = whole V c :=
  (dat1 V c).arrAt_eq_of_cover 5 (whole V c) (fun t _ => flushed_eq V c t) (cover)

end Cert.KernelIdeal.Launch1

end
-- ==== Proof.KernelValue.lean ====
/-
  The idealized kernel's result as one term of its arguments.

  Before the first launch the host computes, from the edge lists alone, the reciprocal column: one over
  `max (number of incoming edges) 1` per node; and from the features and the edge lists the neighbour sums (features
  gathered along the edges' sources, added up at the edges' destinations); and it recasts the weights. The first launch
  leaves the layer function of these in its result array. Between the launches the host forms the neighbour sums of that
  result the same way and recasts the second weight matrix; the second launch leaves the layer function of those, with
  the SAME reciprocal column, in the program's result. Every buffer a stretch or a launch does not write keeps its
  contents, so each array a launch reads is the host's term of the arguments as launched.
-/
import proofs.«172123_j44719199485974_2_alg».proof.Proof.Gen.KernelIdeal.Frame
import proofs.«172123_j44719199485974_2_alg».proof.Proof.Launch0
import proofs.«172123_j44719199485974_2_alg».proof.Proof.Launch1
import Idealize.ShloMosaic.Lib.StableHlo.Run

set_option maxRecDepth 16384

noncomputable section

namespace Cert.KernelIdeal.Terms

open Idealize.ShloMosaic Idealize.ShloMosaic.TcCoe Idealize.SL.Sem Idealize.ShloMosaic.StableHlo
open Cert.KernelIdeal Cert.KernelIdeal.Gen

/-- The edges' sources as a gather's index column: a negative index counts from the end. -/
def srcColumn (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Neighbour sums of 128-wide features. -/
def sums128 (h : FVec Ideal S50000x128 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h (srcColumn src))

/-- Neighbour sums of 256-wide features. -/
def sums256 (h : FVec Ideal S50000x256 .f32) (src dst : IVec S800000 32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 dst)
    (Host.gather gather_S50000x256_S800000x1_S800000x256_1_0_n_n_0_1_1256 h (srcColumn src))

/-- The per-node count: the number of incoming edges, at least one. -/
def count (dst : IVec S800000 32) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst)
      (broadcastInDim S800000 ![] bcast_S_S800000 (constant (F := Ideal) S_ .f32 0x3F800000#32)))
    (broadcastInDim S50000 ![] bcast_S_S50000 (constant (F := Ideal) S_ .f32 0x3F800000#32))

/-- The reciprocal column: one over the count, as an [N, 1] array. -/
def recipColumn (dst : IVec S800000 32) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (count dst))

/-- A weight matrix recast for the matrix unit (the identity at the exact values). -/
def recast1 (W : FVec Ideal S128x256 .f32) : FVec Ideal S128x256 .bf16 := truncf (F := Ideal) .bf16 W bitsLt_bf16_f32
def recast2 (W : FVec Ideal S256x128 .f32) : FVec Ideal S256x128 .bf16 := truncf (F := Ideal) .bf16 W bitsLt_bf16_f32

/-- The first layer's result, from the arrays: the hidden features. -/
def hiddenOf (x : FVec Ideal S50000x128 .f32) (W1 : FVec Ideal S128x256 .f32) (b1 : FVec Ideal S256 .f32)
    (src dst : IVec S800000 32) : FVec Ideal S50000x256 .f32 :=
  Cert.NodeLayer.viaRecip (N := 50000) (D := 128) (E := 256) x (sums128 x src dst) (recipColumn dst) (recast1 W1) b1

/-- The program's result, from the arrays: the second layer over the hidden features, with the same reciprocal column. -/
def outputOf (x : FVec Ideal S50000x128 .f32) (W1 : FVec Ideal S128x256 .f32) (b1 : FVec Ideal S256 .f32)
    (W2 : FVec Ideal S256x128 .f32) (b2 : FVec Ideal S128 .f32) (src dst : IVec S800000 32) : FVec Ideal S50000x128 .f32 :=
  Cert.NodeLayer.viaRecip (N := 50000) (D := 256) (E := 128) (hiddenOf x W1 b1 src dst)
    (sums256 (hiddenOf x W1 b1 src dst) src dst) (recipColumn dst) (recast2 W2) b2

/-! ## The two stretches of host operations, from any contents -/

section Stretches

variable (Wv : Valuation τ sig (Elt Ideal))

theorem host0_v8 : StableHlo.after hostOps0 Wv (Proc.devRef .tc main_v8) = recipColumn (Wv (Proc.devRef .tc main_arg6)) := by
  after_results_simp
  rfl

theorem host0_v18 : StableHlo.after hostOps0 Wv (Proc.devRef .tc main_v18)
    = sums128 (Wv (Proc.devRef .tc main_arg0)) (Wv (Proc.devRef .tc main_arg5)) (Wv (Proc.devRef .tc main_arg6)) := by
  after_results_simp
  rfl

theorem host0_v19 : StableHlo.after hostOps0 Wv (Proc.devRef .tc main_v19) = recast1 (Wv (Proc.devRef .tc main_arg1)) := by
  after_results_simp
  rfl

theorem host0_arg0 : StableHlo.after hostOps0 Wv (Proc.devRef .tc main_arg0) = (Wv (Proc.devRef .tc main_arg0)) := by
  after_results_simp
  first | rfl | done

theorem host0_arg2 : StableHlo.after hostOps0 Wv (Proc.devRef .tc main_arg2) = (Wv (Proc.devRef .tc main_arg2)) := by
  after_results_simp
  first | rfl | done

theorem host0_arg3 : StableHlo.after hostOps0 Wv (Proc.devRef .tc main_arg3) = (Wv (Proc.devRef .tc main_arg3)) := by
  after_results_simp
  first | rfl | done

theorem host0_arg4 : StableHlo.after hostOps0 Wv (Proc.devRef .tc main_arg4) = (Wv (Proc.devRef .tc main_arg4)) := by
  after_results_simp
  first | rfl | done

theorem host0_arg5 : StableHlo.after hostOps0 Wv (Proc.devRef .tc main_arg5) = (Wv (Proc.devRef .tc main_arg5)) := by
  after_results_simp
  first | rfl | done

theorem host0_arg6 : StableHlo.after hostOps0 Wv (Proc.devRef .tc main_arg6) = (Wv (Proc.devRef .tc main_arg6)) := by
  after_results_simp
  first | rfl | done

theorem host1_v20 : StableHlo.after hostOps1 Wv (Proc.devRef .tc main_v20) = (Wv (Proc.devRef .tc main_v20)) := by
  after_results_simp
  first | rfl | done

theorem host1_v8 : StableHlo.after hostOps1 Wv (Proc.devRef .tc main_v8) = (Wv (Proc.devRef .tc main_v8)) := by
  after_results_simp
  first | rfl | done

theorem host1_arg4 : StableHlo.after hostOps1 Wv (Proc.devRef .tc main_arg4) = (Wv (Proc.devRef .tc main_arg4)) := by
  after_results_simp
  first | rfl | done

theorem host1_v30 : StableHlo.after hostOps1 Wv (Proc.devRef .tc main_v30)
    = sums256 (Wv (Proc.devRef .tc main_v20)) (Wv (Proc.devRef .tc main_arg5)) (Wv (Proc.devRef .tc main_arg6)) := by
  after_results_simp
  rfl

theorem host1_v31 : StableHlo.after hostOps1 Wv (Proc.devRef .tc main_v31) = recast2 (Wv (Proc.devRef .tc main_arg3)) := by
  after_results_simp
  rfl

end Stretches

variable (m : (ℓ : Loc nD τ sig) → Buf (Elt Ideal) ℓ) (ρ : Dev nD → PrngReg)

/-! ## The buffers the first launch finds -/

theorem w1_v8 (c : Dev nD) : W1 m ρ c (Proc.devRef .tc main_v8) = recipColumn (m ((c.tc : Thread nD τ).loc main_arg6)) := host0_v8 (W0 m ρ c)
theorem w1_v18 (c : Dev nD) : W1 m ρ c (Proc.devRef .tc main_v18) = sums128 (m ((c.tc : Thread nD τ).loc main_arg0)) (m ((c.tc : Thread nD τ).loc main_arg5)) (m ((c.tc : Thread nD τ).loc main_arg6)) := host0_v18 (W0 m ρ c)
theorem w1_v19 (c : Dev nD) : W1 m ρ c (Proc.devRef .tc main_v19) = recast1 (m ((c.tc : Thread nD τ).loc main_arg1)) := host0_v19 (W0 m ρ c)
theorem w1_arg0 (c : Dev nD) : W1 m ρ c (Proc.devRef .tc main_arg0) = (m ((c.tc : Thread nD τ).loc main_arg0)) := host0_arg0 (W0 m ρ c)
theorem w1_arg2 (c : Dev nD) : W1 m ρ c (Proc.devRef .tc main_arg2) = (m ((c.tc : Thread nD τ).loc main_arg2)) := host0_arg2 (W0 m ρ c)
theorem w1_arg3 (c : Dev nD) : W1 m ρ c (Proc.devRef .tc main_arg3) = (m ((c.tc : Thread nD τ).loc main_arg3)) := host0_arg3 (W0 m ρ c)
theorem w1_arg4 (c : Dev nD) : W1 m ρ c (Proc.devRef .tc main_arg4) = (m ((c.tc : Thread nD τ).loc main_arg4)) := host0_arg4 (W0 m ρ c)
theorem w1_arg5 (c : Dev nD) : W1 m ρ c (Proc.devRef .tc main_arg5) = (m ((c.tc : Thread nD τ).loc main_arg5)) := host0_arg5 (W0 m ρ c)
theorem w1_arg6 (c : Dev nD) : W1 m ρ c (Proc.devRef .tc main_arg6) = (m ((c.tc : Thread nD τ).loc main_arg6)) := host0_arg6 (W0 m ρ c)

/-- After the first launch its result array holds the hidden features. -/
theorem w2_v20 (c : Dev nD) : W2 m ρ c (Proc.devRef .tc main_v20) = hiddenOf (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (W2_arr m ρ c 5).trans ((Cert.KernelIdeal.Launch0.final (V1 m ρ) c).trans ?_)
  unfold Cert.KernelIdeal.Launch0.whole hiddenOf
  rw [show V1 m ρ c main_arg0 = _ from w1_arg0 m ρ c, show V1 m ρ c main_v18 = _ from w1_v18 m ρ c,
    show V1 m ρ c main_v8 = _ from w1_v8 m ρ c, show V1 m ρ c main_v19 = _ from w1_v19 m ρ c,
    show V1 m ρ c main_arg2 = _ from w1_arg2 m ρ c]

/-- The first launch reads the reciprocal column and leaves it as it was. -/
theorem w2_v8 (c : Dev nD) : W2 m ρ c (Proc.devRef .tc main_v8) = recipColumn (m ((c.tc : Thread nD τ).loc main_arg6)) :=
  ((W2_arr m ρ c 2).trans (((dat0 (V1 m ρ) c).arrAt_in 2 rfl _).trans (A_eq0 (V1 m ρ) c 2))).trans (w1_v8 m ρ c)

/-! ## The buffers the second launch finds -/

theorem v3_v20 (c : Dev nD) : V3 m ρ c main_v20 = hiddenOf (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) :=
  (host1_v20 (W2 m ρ c)).trans (w2_v20 m ρ c)

theorem v3_v30 (c : Dev nD) : V3 m ρ c main_v30
    = sums256 (hiddenOf (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg5)) (m ((c.tc : Thread nD τ).loc main_arg6)) := by
  refine (host1_v30 (W2 m ρ c)).trans ?_
  rw [w2_v20, W2_of_ne m ρ c main_arg5 (by decide), W2_of_ne m ρ c main_arg6 (by decide), w1_arg5, w1_arg6]

theorem v3_v8 (c : Dev nD) : V3 m ρ c main_v8 = recipColumn (m ((c.tc : Thread nD τ).loc main_arg6)) :=
  (host1_v8 (W2 m ρ c)).trans (w2_v8 m ρ c)

theorem v3_v31 (c : Dev nD) : V3 m ρ c main_v31 = recast2 (m ((c.tc : Thread nD τ).loc main_arg3)) := by
  refine (host1_v31 (W2 m ρ c)).trans ?_
  rw [W2_of_ne m ρ c main_arg3 (by decide), w1_arg3]

theorem v3_arg4 (c : Dev nD) : V3 m ρ c main_arg4 = (m ((c.tc : Thread nD τ).loc main_arg4)) := by
  refine (host1_arg4 (W2 m ρ c)).trans ?_
  rw [W2_of_ne m ρ c main_arg4 (by decide), w1_arg4]

/-- At the last boundary the result array holds the two layers' term of the arguments as launched. -/
theorem value (c : Dev nD) : W4 m ρ c (Proc.devRef .tc main_v32)
    = outputOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W4_arr m ρ c 5).trans ((Cert.KernelIdeal.Launch1.final (V3 m ρ) c).trans ?_)
  unfold Cert.KernelIdeal.Launch1.whole outputOf
  rw [v3_v20, v3_v30, v3_v8, v3_v31, v3_arg4]

end Cert.KernelIdeal.Terms

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LayersAgree.lean ====
/-
  The kernel's two layers in the reference's spelling.

  The kernel multiplies the neighbour sums by a reciprocal column, the reference divides them by the count. The column's
  entry at node `p` is `1 / d p` with `d p = max (number of incoming edges of p) 1`; whatever the first operand of that
  maximum is, `d p ≥ 1`, so `d p ≠ 0`, and off zero `x * (1 / y) = x / y` on every extended real. Hence each of the
  kernel's layers is the layer function with the mean spelt as a quotient by the count — for ANY neighbour sums and any
  features, finite or not. The recast of the weights before the matrix product is the identity at the exact values.
-/
import proofs.«172123_j44719199485974_2_alg».proof.Proof.KernelValue
import proofs.«172123_j44719199485974_2_alg».proof.Proof.LibNodeLayer
import proofs.«172123_j44719199485974_2_alg».proof.Proof.LibBroadcastInDim
import Idealize.ShloMosaic.Lib.ValueIdx
import Idealize.ShloMosaic.Lib.IdealHost

set_option maxRecDepth 16384

noncomputable section

namespace Cert.KernelIdeal.Agree

open Idealize.ShloMosaic Idealize.ShloMosaic.TcCoe Idealize.ShloMosaic.ValueIdx
open Cert.KernelIdeal Cert.KernelIdeal.Terms

/-- The splat of the f32 word of one reads one. -/
theorem ones_apply (h : S_.BroadcastsInDim S50000 ![]) (p : Fin 50000) :
    broadcastInDim S50000 ![] h (constant (F := Ideal) S_ .f32 0x3F800000#32) (ix1 p) = (1 : EReal) := by
  rw [Cert.BroadcastInDim.scalar_apply]
  exact Ideal.ofBits_one_f32

/-- The count is at least one, so it is not zero. -/
theorem count_ne_zero (dst : IVec S800000 32) (p : Fin 50000) : Terms.count dst (ix1 p) ≠ 0 := by
  unfold Terms.count
  rw [maximumf_apply, ones_apply]
  exact ne_of_gt (lt_of_lt_of_le zero_lt_one (le_max_right _ _))

/-- The reciprocal column's entry of node `p` is one over the count of `p`. -/
theorem recip_apply (dst : IVec S800000 32) (p : Fin 50000) :
    recipColumn dst (ix2 p (0 : Fin 1)) = Ideal.div 1 (Terms.count dst (ix1 p)) := by
  unfold recipColumn
  rw [Cert.BroadcastInDim.column_apply]
  rw [Host.divf]
  show Ideal.div (broadcastInDim S50000 ![] _ (constant (F := Ideal) S_ .f32 0x3F800000#32) (ix1 p))
    (Terms.count dst (ix1 p)) = _
  rw [ones_apply]

theorem recast1_eq (W : FVec Ideal S128x256 .f32) : recast1 W = W := rfl
theorem recast2_eq (W : FVec Ideal S256x128 .f32) : recast2 W = W := rfl

/-- The hidden features, with the mean as a quotient by the count. -/
theorem hiddenOf_eq (x : FVec Ideal S50000x128 .f32) (W1 : FVec Ideal S128x256 .f32) (b1 : FVec Ideal S256 .f32)
    (src dst : IVec S800000 32) :
    hiddenOf x W1 b1 src dst
      = Cert.NodeLayer.viaQuot (N := 50000) (D := 128) (E := 256) x (sums128 x src dst) (Terms.count dst) W1 b1 := by
  unfold hiddenOf
  rw [recast1_eq]
  exact Cert.NodeLayer.viaRecip_eq_viaQuot _ _ _ _ _ _ (recip_apply dst) (count_ne_zero dst)

/-- The result, with both means as quotients by the count. -/
theorem outputOf_eq (x : FVec Ideal S50000x128 .f32) (W1 : FVec Ideal S128x256 .f32) (b1 : FVec Ideal S256 .f32)
    (W2 : FVec Ideal S256x128 .f32) (b2 : FVec Ideal S128 .f32) (src dst : IVec S800000 32) :
    outputOf x W1 b1 W2 b2 src dst
      = Cert.NodeLayer.viaQuot (N := 50000) (D := 256) (E := 128)
          (Cert.NodeLayer.viaQuot (N := 50000) (D := 128) (E := 256) x (sums128 x src dst) (Terms.count dst) W1 b1)
          (sums256 (Cert.NodeLayer.viaQuot (N := 50000) (D := 128) (E := 256) x (sums128 x src dst) (Terms.count dst) W1 b1) src dst)
          (Terms.count dst) W2 b2 := by
  unfold outputOf
  rw [recast2_eq, hiddenOf_eq]
  exact Cert.NodeLayer.viaRecip_eq_viaQuot _ _ _ _ _ _ (recip_apply dst) (count_ne_zero dst)

end Cert.KernelIdeal.Agree

end
-- ==== Proof.RefLayers.lean ====
/-
  The reference, layer by layer.

  The reference computes, once, a per-node count `d = max (number of incoming edges) 1`, and then twice the same layer:
  gather the features along the edges' sources, add them up at the edges' destinations (`s`), divide by the count, add
  the node's own features, multiply by the weights, add the bias, and take the maximum with zero. Read entry by entry,
  each layer is the layer function with the mean spelt "sum divided by the count": the host's product is the plain sum
  over the contraction index, the count and the bias reach an entry through broadcasts that read them at the entry's own
  row, resp. column. The neighbour sums and the count are left as the host terms they are: nothing here looks inside a
  gather or a scatter.
-/
import proofs.«172123_j44719199485974_2_alg».proof.Proof.Gen.ReferenceIdeal.Read
import proofs.«172123_j44719199485974_2_alg».proof.Proof.LibNodeLayer
import Idealize.ShloMosaic.Lib.ValueIdx

open scoped BigOperators

noncomputable section

namespace Cert.ReferenceIdeal.Layers

open Idealize.ShloMosaic Idealize.ShloMosaic.TcCoe Idealize.ShloMosaic.ValueIdx Idealize.SL.Sem
open Cert.ReferenceIdeal Cert.ReferenceIdeal.Read

/-- The first layer's result is the layer function of the features, their neighbour sums and the count. -/
theorem layer0 (x0 : (⟨S50000x128, .f32⟩ : BufTy).Contents (Elt Ideal)) (x1 : (⟨S128x256, .f32⟩ : BufTy).Contents (Elt Ideal))
    (x2 : (⟨S256, .f32⟩ : BufTy).Contents (Elt Ideal)) (x5 x6 : (⟨S800000, .i32⟩ : BufTy).Contents (Elt Ideal)) :
    val_main_v24 (F := Ideal) x0 x1 x2 x5 x6
      = Cert.NodeLayer.viaQuot x0 (val_main_v16 (F := Ideal) x0 x5 x6) (val_main_v5 (F := Ideal) x6) x1 x2 := by
  funext i
  obtain ⟨p, q, rfl⟩ : ∃ (p : Fin 50000) (q : Fin 256), i = ix2 p q := ⟨i 0, i 1, eq_ix2 i⟩
  rw [Cert.NodeLayer.viaQuot_apply]
  rw [val_main_v24_apply, val_main_v23_apply, val_main_v20_apply, val_main_v22_apply, val_main_v21_apply,
    val_main_call0_v0_apply, val_main_call0_cst_apply]
  have el : ∀ k : Fin 128, lidx_main_v20 (ix2 p q) k = ix2 p k := fun k => funext fun a => Fin.ext (by
    match a with | ⟨0, _⟩ => rfl | ⟨1, _⟩ => rfl)
  have er : ∀ k : Fin 128, ridx_main_v20 (ix2 p q) k = ix2 k q := fun k => funext fun a => Fin.ext (by
    match a with | ⟨0, _⟩ => rfl | ⟨1, _⟩ => rfl)
  have eb : idx_main_v21 (idx_main_v22 (ix2 p q)) = ix1 q := funext fun a => Fin.ext (by
    match a with | ⟨0, _⟩ => rfl)
  have ed : ∀ k : Fin 128, idx_main_v6 (idx_main_v17 (ix2 p k)) = ix1 p := fun k => funext fun a => Fin.ext (by
    match a with | ⟨0, _⟩ => rfl)
  rw [eb]
  show max ((∑ k : Fin 128, val_main_v19 (F := Ideal) x0 x5 x6 (lidx_main_v20 (ix2 p q) k) * x1 (ridx_main_v20 (ix2 p q) k)) + x2 (ix1 q))
      (Ideal.ofBits .f32 0x00000000#32) = _
  refine congrArg (fun z => max (z + x2 (ix1 q)) (Ideal.ofBits .f32 0x00000000#32)) (Finset.sum_congr rfl fun k _ => ?_)
  rw [el k, er k, val_main_v19_apply, val_main_v18_apply, val_main_v17_apply, val_main_v6_apply, ed k]
  rfl

/-- The second layer's result is the layer function of the hidden features, their neighbour sums and the same count. -/
theorem layer1 (x0 : (⟨S50000x128, .f32⟩ : BufTy).Contents (Elt Ideal)) (x1 : (⟨S128x256, .f32⟩ : BufTy).Contents (Elt Ideal))
    (x2 : (⟨S256, .f32⟩ : BufTy).Contents (Elt Ideal)) (x3 : (⟨S256x128, .f32⟩ : BufTy).Contents (Elt Ideal))
    (x4 : (⟨S128, .f32⟩ : BufTy).Contents (Elt Ideal)) (x5 x6 : (⟨S800000, .i32⟩ : BufTy).Contents (Elt Ideal)) :
    val_main_v42 (F := Ideal) x0 x1 x2 x3 x4 x5 x6
      = Cert.NodeLayer.viaQuot (val_main_v24 (F := Ideal) x0 x1 x2 x5 x6) (val_main_v34 (F := Ideal) x0 x1 x2 x5 x6)
          (val_main_v5 (F := Ideal) x6) x3 x4 := by
  funext i
  obtain ⟨p, q, rfl⟩ : ∃ (p : Fin 50000) (q : Fin 128), i = ix2 p q := ⟨i 0, i 1, eq_ix2 i⟩
  rw [Cert.NodeLayer.viaQuot_apply]
  rw [val_main_v42_apply, val_main_v41_apply, val_main_v38_apply, val_main_v40_apply, val_main_v39_apply,
    val_main_call1_v0_apply, val_main_call1_cst_apply]
  have el : ∀ k : Fin 256, lidx_main_v38 (ix2 p q) k = ix2 p k := fun k => funext fun a => Fin.ext (by
    match a with | ⟨0, _⟩ => rfl | ⟨1, _⟩ => rfl)
  have er : ∀ k : Fin 256, ridx_main_v38 (ix2 p q) k = ix2 k q := fun k => funext fun a => Fin.ext (by
    match a with | ⟨0, _⟩ => rfl | ⟨1, _⟩ => rfl)
  have eb : idx_main_v39 (idx_main_v40 (ix2 p q)) = ix1 q := funext fun a => Fin.ext (by
    match a with | ⟨0, _⟩ => rfl)
  have ed : ∀ k : Fin 256, idx_main_v6 (idx_main_v35 (ix2 p k)) = ix1 p := fun k => funext fun a => Fin.ext (by
    match a with | ⟨0, _⟩ => rfl)
  rw [eb]
  show max ((∑ k : Fin 256, val_main_v37 (F := Ideal) x0 x1 x2 x5 x6 (lidx_main_v38 (ix2 p q) k) * x3 (ridx_main_v38 (ix2 p q) k)) + x4 (ix1 q))
      (Ideal.ofBits .f32 0x00000000#32) = _
  refine congrArg (fun z => max (z + x4 (ix1 q)) (Ideal.ofBits .f32 0x00000000#32)) (Finset.sum_congr rfl fun k _ => ?_)
  rw [el k, er k, val_main_v37_apply, val_main_v36_apply, val_main_v35_apply, val_main_v6_apply, ed k]
  rfl

/-- The reference's result: two layers over one count. -/
theorem result (m : (ℓ : Loc nD τ sig) → Buf (Elt Ideal) ℓ) (c : Dev nD) :
    Cert.ReferenceIdeal.Value.res_main_v42 m c
      = Cert.NodeLayer.viaQuot
          (Cert.NodeLayer.viaQuot (m ((c.tc : Thread nD τ).loc main_arg0))
            (val_main_v16 (F := Ideal) (m ((c.tc : Thread nD τ).loc main_arg0)) (m ((c.tc : Thread nD τ).loc main_arg5)) (m ((c.tc : Thread nD τ).loc main_arg6)))
            (val_main_v5 (F := Ideal) (m ((c.tc : Thread nD τ).loc main_arg6)))
            (m ((c.tc : Thread nD τ).loc main_arg1)) (m ((c.tc : Thread nD τ).loc main_arg2)))
          (val_main_v34 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)))
          (val_main_v5 (F := Ideal) (m ((c.tc : Thread nD τ).loc main_arg6)))
          (m ((c.tc : Thread nD τ).loc main_arg3)) (m ((c.tc : Thread nD τ).loc main_arg4)) := by
  rw [val_main_v42_eq, layer1, layer0]

end Cert.ReferenceIdeal.Layers

end
-- ==== Proof.lean ====
/-
  The certificate of a two-layer message-passing encoder: the kernel program against its plain reference.

  Both programs compute, per node, a count `d = max (number of incoming edges) 1`, and then twice a layer
  `h ↦ max ((h + mean h) · W + b) 0`, where `mean h` is the sum of `h` over a node's incoming neighbours divided by `d`.
  The kernel program forms the reciprocal `1 / d` once on the host and runs each layer's dense part as a kernel launch
  tiled over the nodes, multiplying the neighbour sums by the reciprocal inside the kernel; the reference divides.

  * The frames of the two kernel programs are the generated ones; the reference's frame is its generated run with the
    result dropped.
  * The idealized kernel is the kernel's own text read at the exact values: there is nothing to preserve.
  * For the values: the kernel program's result array ends at the two layers' term of the arguments with the mean spelt
    "sum times reciprocal column" (each launch's blocks tile its result array, and every buffer in between keeps or gets
    the host's term); the reference's at the same two layers with the mean spelt as a quotient. The count is at least
    one, hence not zero, and off zero `x * (1 / y) = x / y` on every extended real, so the two terms are one function —
    with no use of the inputs' finiteness. The neighbour sums (a gather and a scatter-add) and the count are the same
    host terms in both programs and are never opened.
-/
import proofs.«172123_j44719199485974_2_alg».proof.Defs
import proofs.«172123_j44719199485974_2_alg».proof.Proof.Gen.Kernel
import proofs.«172123_j44719199485974_2_alg».proof.Proof.Gen.Kernel.Skeleton
import proofs.«172123_j44719199485974_2_alg».proof.Proof.Gen.Kernel.Launch
import proofs.«172123_j44719199485974_2_alg».proof.Proof.Gen.Kernel.Points
import proofs.«172123_j44719199485974_2_alg».proof.Proof.Gen.Kernel.Frame
import proofs.«172123_j44719199485974_2_alg».proof.Proof.Gen.KernelIdeal
import proofs.«172123_j44719199485974_2_alg».proof.Proof.Gen.KernelIdeal.Skeleton
import proofs.«172123_j44719199485974_2_alg».proof.Proof.Gen.KernelIdeal.Launch
import proofs.«172123_j44719199485974_2_alg».proof.Proof.Gen.KernelIdeal.Points
import proofs.«172123_j44719199485974_2_alg».proof.Proof.Gen.KernelIdeal.Frame
import proofs.«172123_j44719199485974_2_alg».proof.Proof.Gen.ReferenceIdeal
import proofs.«172123_j44719199485974_2_alg».proof.Proof.Gen.Pre_finite_inputs
import proofs.«172123_j44719199485974_2_alg».proof.Proof.Gen.ReferenceIdeal.Run
import proofs.«172123_j44719199485974_2_alg».proof.Proof.Gen.ReferenceIdeal.Read
import proofs.«172123_j44719199485974_2_alg».proof.Proof.KernelRun
import proofs.«172123_j44719199485974_2_alg».proof.Proof.KernelValue
import proofs.«172123_j44719199485974_2_alg».proof.Proof.LayersAgree
import proofs.«172123_j44719199485974_2_alg».proof.Proof.RefLayers
import Idealize.ShloMosaic.Adequacy
import Idealize.ShloMosaic.Init

noncomputable section

namespace Cert.Proof

open Idealize.ShloMosaic Idealize.ShloMosaic.TcCoe Idealize.SL.Sem

/-- The reference's two layers are the kernel program's two layers: the neighbour sums and the count are the same host
    terms, and the kernel's reciprocal spelling of the mean is the quotient. -/
theorem same_result (x : FVec Ideal Cert.KernelIdeal.S50000x128 .f32) (W1 : FVec Ideal Cert.KernelIdeal.S128x256 .f32)
    (b1 : FVec Ideal Cert.KernelIdeal.S256 .f32) (W2 : FVec Ideal Cert.KernelIdeal.S256x128 .f32)
    (b2 : FVec Ideal Cert.KernelIdeal.S128 .f32) (src dst : IVec Cert.KernelIdeal.S800000 32) :
    Cert.NodeLayer.viaQuot (N := 50000) (D := 256) (E := 128)
        (Cert.NodeLayer.viaQuot (N := 50000) (D := 128) (E := 256) x
          (Cert.ReferenceIdeal.Read.val_main_v16 (F := Ideal) x src dst) (Cert.ReferenceIdeal.Read.val_main_v5 (F := Ideal) dst) W1 b1)
        (Cert.ReferenceIdeal.Read.val_main_v34 (F := Ideal) x W1 b1 src dst) (Cert.ReferenceIdeal.Read.val_main_v5 (F := Ideal) dst) W2 b2
      = Cert.KernelIdeal.Terms.outputOf x W1 b1 W2 b2 src dst := by
  have e16 : Cert.ReferenceIdeal.Read.val_main_v16 (F := Ideal) x src dst = Cert.KernelIdeal.Terms.sums128 x src dst := rfl
  have e5 : Cert.ReferenceIdeal.Read.val_main_v5 (F := Ideal) dst = Cert.KernelIdeal.Terms.count dst := rfl
  have e34 : Cert.ReferenceIdeal.Read.val_main_v34 (F := Ideal) x W1 b1 src dst
      = Cert.KernelIdeal.Terms.sums256 (Cert.ReferenceIdeal.Read.val_main_v24 (F := Ideal) x W1 b1 src dst) src dst := rfl
  rw [Cert.KernelIdeal.Agree.outputOf_eq, e34, Cert.ReferenceIdeal.Layers.layer0, e16, e5]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the two layers' term of the arguments in their result arrays. -/
theorem algebraic : Cert.algebraic_KernelIdeal_ReferenceIdeal := by
  intro m ρ m' ρ' _ hagree
  refine ⟨fun c => Cert.KernelIdeal.Terms.outputOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Terms.value m ρ c), (h c).2⟩) (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Layers.result, e0, e1, e2, e3, e4, e5, e6]
    exact same_result _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
